-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S128x2048 : Shape := ⟨2, ![128, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S128x2048 : S_.BroadcastsInDim S128x2048 (![] : Fin 0 → Fin S128x2048.rank)
  reducesTo_S128x2048_S_d0_1 : S128x2048.ReducesTo [0, 1] S_

variable [Facts]

def fn {F : FTy → Type} [FloatOps F] (main_arg0 : FVec F S1024x2048 .f32) (main_arg1 : FVec F S1024x2048 .f32) (main_arg2 : FVec F S128x2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  main_v13
-- ==== Kernel.lean ====
abbrev S1024x2048 : Shape := ⟨2, ![1024, 2048]⟩
abbrev S128x2048 : Shape := ⟨2, ![128, 2048]⟩
abbrev S1024x1024 : Shape := ⟨2, ![1024, 1024]⟩
abbrev S256x2048 : Shape := ⟨2, ![256, 2048]⟩
abbrev S256x1024 : Shape := ⟨2, ![256, 1024]⟩
abbrev S1024x128 : Shape := ⟨2, ![1024, 128]⟩
abbrev S256x128 : Shape := ⟨2, ![256, 128]⟩

abbrev nBuf : Space → Nat
  | .hbm => 4
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S128x2048, .f32⟩
  | .hbm, ⟨3, _⟩ => ⟨S1024x1024, .f32⟩
  | .local _ .vmem, ⟨0, _⟩ => ⟨S256x2048, .f32⟩
  | .local _ .vmem, ⟨1, _⟩ => ⟨S256x2048, .f32⟩
  | .local _ .vmem, ⟨2, _⟩ => ⟨S1024x2048, .f32⟩
  | .local _ .vmem, ⟨3, _⟩ => ⟨S128x2048, .f32⟩
  | .local _ .vmem, ⟨4, _⟩ => ⟨S256x1024, .f32⟩
  | .local _ .vmem, ⟨5, _⟩ => ⟨S256x1024, .f32⟩
  | .local _ .vmem, ⟨6, _⟩ => ⟨S1024x128, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  packedbf16_S1024x128_S1024x128_0_0 : (Rect.unit (s := S1024x128) ![0, 0] S1024x128.size inb_S1024x128_S1024x128_0_0).PackedRows (EltTy.packing .bf16)
  inb_S256x2048_S256x2048_0_0 : ∀ a, (![0, 0] : Fin 2 → Nat) a + S256x2048.size a ≤ S256x2048.size a
  h_S256x2048 : 0 < S256x2048.numel
  inb_S256x1024_S256x1024_0_0 : ∀ a, (![0, 0] : Fin 2 → Nat) a + S256x1024.size a ≤ S256x1024.size a
  h_S256x1024 : 0 < S256x1024.numel
  dot_S1024x2048_S128x2048_S1024x128_1_1_0_0_n_n_wf : DotDims.WF S1024x2048 S128x2048 S1024x128 [1] [1] [0] [0] [] []
  dot_S256x2048_S128x2048_S256x128_1_1_0_0_n_n_wf : DotDims.WF S256x2048 S128x2048 S256x128 [1] [1] [0] [0] [] []
  dot_S256x128_S1024x128_S256x1024_1_1_0_0_n_n_wf : DotDims.WF S256x128 S1024x128 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S1024x2048.size a
  hwx0_0 : ∀ i : grid0.Coords, EltTy.bits .f32 = 32 ∨ (Rect.block (s := S1024x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S128x2048.size a
  hwx0_2 : ∀ i : grid0.Coords, EltTy.bits .f32 = 32 ∨ (Rect.block (s := S128x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S1024x1024.size a
  hwx0_3 : ∀ i : grid0.Coords, EltTy.bits .f32 = 32 ∨ (Rect.block (s := S1024x1024) S256x1024.size (cc0_transform_3 i) (hinb0_3 i)).WholeWords (EltTy.packing .f32)

variable [Facts₀]

def dot_S1024x2048_S128x2048_S1024x128_1_1_0_0_n_n : DotDims S1024x2048 S128x2048 S1024x128 where
  lhsContracting := [1]
  rhsContracting := [1]
  lhsNonContracting := [0]
  rhsNonContracting := [0]
  lhsBatch := []
  rhsBatch := []
  wf := dot_S1024x2048_S128x2048_S1024x128_1_1_0_0_n_n_wf
def dot_S256x2048_S128x2048_S256x128_1_1_0_0_n_n : DotDims S256x2048 S128x2048 S256x128 where
  lhsContracting := [1]
  rhsContracting := [1]
  lhsNonContracting := [0]
  rhsNonContracting := [0]
  lhsBatch := []
  rhsBatch := []
  wf := dot_S256x2048_S128x2048_S256x128_1_1_0_0_n_n_wf
def dot_S256x128_S1024x128_S256x1024_1_1_0_0_n_n : DotDims S256x128 S1024x128 S256x1024 where
  lhsContracting := [1]
  rhsContracting := [1]
  lhsNonContracting := [0]
  rhsNonContracting := [0]
  lhsBatch := []
  rhsBatch := []
  wf := dot_S256x128_S1024x128_S256x1024_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S128x2048 : Shape := ⟨2, ![128, 2048]⟩
abbrev S2048x128 : Shape := ⟨2, ![2048, 128]⟩
abbrev S1024x128 : Shape := ⟨2, ![1024, 128]⟩
abbrev S_ : Shape := ⟨0, ![]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S128x2048, .f32⟩
  | .hbm, ⟨3, _⟩ => ⟨S2048x128, .f32⟩
  | .hbm, ⟨4, _⟩ => ⟨S1024x128, .f32⟩
  | .hbm, ⟨5, _⟩ => ⟨S2048x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S_, .f32⟩
  | .hbm, ⟨11, _⟩ => ⟨S1024x128, .f32⟩
  | .hbm, ⟨12, _⟩ => ⟨S1024x128, .f32⟩
  | .hbm, ⟨13, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_call1_cst : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  transposes_S128x2048_S2048x128_1_0 : S128x2048.Transposes [1, 0] S2048x128
  bcast_S_S1024x128 : S_.BroadcastsInDim S1024x128 (![] : Fin 0 → Fin S1024x128.rank)
  dot_S1024x2048_S2048x128_S1024x128_1_0_0_1_n_n_wf : DotDims.WF S1024x2048 S2048x128 S1024x128 [1] [0] [0] [1] [] []
  dot_S1024x128_S1024x128_S1024x1024_1_1_0_0_n_n_wf : DotDims.WF S1024x128 S1024x128 S1024x1024 [1] [1] [0] [0] [] []

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

class Facts : Prop extends Facts₀ where

variable [Facts]
-- ==== Proof.Pieces.lean ====
/-
  What each control case of the kernel body leaves behind, as values.

  The body runs in one of two cases, decided by the inner grid coordinate.
  * FILLING (inner coordinate zero): it stores into the scratch a value computed from the whole blocks of `b` and `feats`, then
    reads the scratch back and stores into the output block a value computed from the `a` block, `feats` and what it read — which is
    what it has just stored.
  * REUSING (inner coordinate nonzero): it stores nothing into the scratch, and the output block's value is computed from the `a`
    block, `feats` and what the scratch already held on entry.
  Each store covers its whole buffer, so what a buffer holds afterwards is just the stored value; each load reads a whole buffer, so
  what it returns is just the buffer's contents. These hold for any float values, not only the extended reals.
-/
import proofs.«127049_j89567247991565_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- Every access of the body starts at the origin of its buffer. -/
theorem origin : (![0, 0] : Fin 2 → Nat) = fun _ => 0 := funext fun a => by fin_cases a <;> rfl

/-- REUSING: the output block ends holding the body's output value of the `a` block `x0`, the `feats` block `x2` and the scratch's
    contents on entry `xs0`. -/
theorem out_reusing (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S128x2048 .f32) (harg4 : arg4.IsWhole) (arg5 : Memref sig .tc .vmem S256x1024 .f32) (harg5 : arg5.IsWhole) (arg6 : Memref sig .tc .vmem S1024x128 .bf16) (harg6 : arg6.IsWhole) (hc0 : ¬cond0_0 i)
    (x0 : Vec F S256x2048 .f32) (x1 : Vec F S1024x2048 .f32) (x2 : Vec F S128x2048 .f32) (xs0 : Vec F S1024x128 .bf16) :
    out0_B_3 c i arg2 harg2 arg3 harg3 arg4 harg4 arg5 harg5 arg6 harg6 hc0 x0 x1 x2 xs0 = k0_pay2 x0 x2 xs0 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero origin]
  simp only [View.readAt_eq_ld, harg2.read_unread, harg4.read_unread, harg6.read_unread,
    View.ld_unit_zero (S := S256x2048) origin, View.ld_unit_zero (S := S128x2048) origin, View.ld_unit_zero (S := S1024x128) origin]

/-- FILLING: the scratch ends holding the body's scratch value of the `b` block `x1` and the `feats` block `x2`. -/
theorem scratch_filling (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S128x2048 .f32) (harg4 : arg4.IsWhole) (arg5 : Memref sig .tc .vmem S256x1024 .f32) (harg5 : arg5.IsWhole) (arg6 : Memref sig .tc .vmem S1024x128 .bf16) (harg6 : arg6.IsWhole) (hc0 : cond0_0 i)
    (x0 : Vec F S256x2048 .f32) (x1 : Vec F S1024x2048 .f32) (x2 : Vec F S128x2048 .f32) :
    sout0_A_0 c i arg2 harg2 arg3 harg3 arg4 harg4 arg5 harg5 arg6 harg6 hc0 x0 x1 x2 = k0_pay1 x1 x2 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero origin]
  simp only [View.readAt_eq_ld, harg3.read_unread, harg4.read_unread,
    View.ld_unit_zero (S := S128x2048) origin, View.ld_unit_zero (S := S1024x2048) origin]

/-- FILLING: the output block ends holding the body's output value of the `a` block, the `feats` block and the scratch value just
    stored — the read-back of the scratch is a read of the one store that covered it. -/
theorem out_filling (c : Dev nD) (i : grid0.Coords) (arg2 : Memref sig .tc .vmem S256x2048 .f32) (harg2 : arg2.IsWhole) (arg3 : Memref sig .tc .vmem S1024x2048 .f32) (harg3 : arg3.IsWhole) (arg4 : Memref sig .tc .vmem S128x2048 .f32) (harg4 : arg4.IsWhole) (arg5 : Memref sig .tc .vmem S256x1024 .f32) (harg5 : arg5.IsWhole) (arg6 : Memref sig .tc .vmem S1024x128 .bf16) (harg6 : arg6.IsWhole) (hc0 : cond0_0 i)
    (x0 : Vec F S256x2048 .f32) (x1 : Vec F S1024x2048 .f32) (x2 : Vec F S128x2048 .f32) :
    out0_A_3 c i arg2 harg2 arg3 harg3 arg4 harg4 arg5 harg5 arg6 harg6 hc0 x0 x1 x2 = k0_pay2 x0 x2 (k0_pay1 x1 x2) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero origin, View.readCov_unit_zero (S := S1024x128) _ origin]
  simp only [View.readAt_eq_ld, harg2.read_unread, harg3.read_unread, harg4.read_unread,
    View.ld_unit_zero (S := S256x2048) origin, View.ld_unit_zero (S := S128x2048) origin, View.ld_unit_zero (S := S1024x2048) origin]

end Cert.KernelIdeal.Pieces

end
-- ==== Proof.Spec.lean ====
/-
  The function both programs compute, stated once over the argument arrays.

  The arguments are `a, b : 1024 × 2048` and `feats : 128 × 2048`, arrays of extended reals. The SCORE of a row `x` of `a` or
  of `b` against feature `k` is the inner product `∑ d, x[d] · feats[k, d]` over the 2048 columns, clipped below at zero. The
  result's entry `(i, j)` is the inner product, over the 128 features, of the clipped scores of row `i` of `a` and of row `j` of `b`:

      out[i, j] = ∑ k, max (∑ d, a[i, d] · feats[k, d]) 0 · max (∑ d, b[j, d] · feats[k, d]) 0.

  Both programs compute every entry by exactly this nesting of sums, with the factors in this order, so no law of arithmetic
  beyond re-indexing a sum joins them, and nothing here asks the entries to be finite.
-/
import Idealize.ShloMosaic.PureOps.Ideal
import Idealize.ShloMosaic.Lib.ValueIdx

noncomputable section

open scoped BigOperators

namespace Cert.Spec

open Idealize.ShloMosaic Idealize.ShloMosaic.ValueIdx

/-- The clipped score of row `r` of a `rows × 2048` array `x` against feature `k`: `max (∑ d, x[r, d] · feats[k, d]) 0`.
    The row count is a parameter because the kernel meets `a` one block of 256 rows at a time and `b` whole. -/
def score {rows : Nat} (x : (⟨2, ![rows, 2048]⟩ : Shape).Idx → EReal) (feats : (⟨2, ![128, 2048]⟩ : Shape).Idx → EReal)
    (r : Fin rows) (k : Fin 128) : EReal :=
  max (∑ d : Fin 2048, x (ix2 r d) * feats (ix2 k d)) 0

/-- Entry `(i, j)` of the result: the inner product over the features of the clipped scores of row `i` of `a` and row `j` of `b`. -/
def entry (a b : (⟨2, ![1024, 2048]⟩ : Shape).Idx → EReal) (feats : (⟨2, ![128, 2048]⟩ : Shape).Idx → EReal)
    (i j : Fin 1024) : EReal :=
  ∑ k : Fin 128, score a feats i k * score b feats j k

/-- The whole result array as one function of the three argument arrays. -/
def result (a b : (⟨2, ![1024, 2048]⟩ : Shape).Idx → EReal) (feats : (⟨2, ![128, 2048]⟩ : Shape).Idx → EReal) :
    (⟨2, ![1024, 1024]⟩ : Shape).Idx → EReal :=
  fun i => entry a b feats (i 0) (i 1)

/-- The result read at an index given by its two coordinates. -/
theorem result_ix2 (a b : (⟨2, ![1024, 2048]⟩ : Shape).Idx → EReal) (feats : (⟨2, ![128, 2048]⟩ : Shape).Idx → EReal)
    (i j : Fin 1024) : result a b feats (ix2 i j) = entry a b feats i j := rfl

end Cert.Spec

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.Body.lean ====
/-
  The two values the kernel body stores, read entry by entry over the extended reals.

  The body stores one value into the scratch (at the points that fill it) and one into the output block (at every point).
  Over the extended reals a change of float format is the identity, so the three narrowing conversions drop out, and each
  matrix product contracts the last axis of both operands into a zero accumulator, so it is an array of inner products of rows.

  * The scratch's value at `(q, k)`, from the whole of `b` and of `feats`: the inner product of row `q` of `b` and row `k` of
    `feats`, clipped below at zero — the clipped score `Spec.score b feats q k`.
  * The output block's value at `(p, q)`, from a block of 256 rows of `a`, the whole of `feats` and whatever the scratch
    holds: `∑ k, score(a-block, feats, p, k) · scratch[q, k]`. It does not matter here what the scratch holds; that it holds the
    clipped scores of `b` at every point is the grid's business, settled elsewhere.
-/
import proofs.«127049_j89567247991565_2_alg».proof.Proof.Gen.KernelIdeal.Skeleton
import proofs.«127049_j89567247991565_2_alg».proof.Proof.Spec
import proofs.«127049_j89567247991565_2_alg».proof.Proof.LibDotRows
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Lib.DotRows

/-- Each of the body's three products contracts axis 1 of the left operand with axis 1 of the right and keeps axis 0 of each. -/
theorem dims_scores_b : dot_S1024x2048_S128x2048_S1024x128_1_1_0_0_n_n = DotDims.transposedRhs 1024 2048 128 := rfl
theorem dims_scores_a : dot_S256x2048_S128x2048_S256x128_1_1_0_0_n_n = DotDims.transposedRhs 256 2048 128 := rfl
theorem dims_out : dot_S256x128_S1024x128_S256x1024_1_1_0_0_n_n = DotDims.transposedRhs 256 128 1024 := rfl

/-- WHAT THE BODY STORES INTO THE SCRATCH, at `(q, k)`: the clipped score of row `q` of the `b` block against feature `k`. -/
theorem scratch_apply (xb : Vec Ideal S1024x2048 .f32) (xf : Vec Ideal S128x2048 .f32) (q : Fin 1024) (k : Fin 128) :
    k0_pay1 (F := Ideal) xb xf (ix2 q k) = Spec.score xb xf q k := by
  unfold k0_pay1
  rw [shapeCast_self]
  show max (FloatOps.matmul dot_S1024x2048_S128x2048_S1024x128_1_1_0_0_n_n none (truncf .bf16 xb bitsLt_bf16_f32)
      (truncf .bf16 xf bitsLt_bf16_f32) (constant S1024x128 .f32 0x00000000#32) (ix2 q k)) (Ideal.ofBits .f32 0x00000000#32) = _
  rw [matmul_rows_apply _ dims_scores_b, Ideal.ofBits_zero_f32]
  rfl

/-- WHAT THE BODY STORES INTO THE OUTPUT BLOCK, at `(p, q)`: the inner product over the features of the clipped scores of row `p`
    of the `a` block and row `q` of whatever the scratch holds. -/
theorem out_apply (xa : Vec Ideal S256x2048 .f32) (xf : Vec Ideal S128x2048 .f32) (s : Vec Ideal S1024x128 .bf16)
    (p : Fin 256) (q : Fin 1024) :
    k0_pay2 (F := Ideal) xa xf s (ix2 p q) = ∑ k : Fin 128, Spec.score xa xf p k * (s (ix2 q k) : EReal) := by
  unfold k0_pay2
  refine (matmul_rows_apply (φ₁ := .bf16) (φ₂ := .bf16) dot_S256x128_S1024x128_S256x1024_1_1_0_0_n_n dims_out none _ s p q).trans ?_
  refine Finset.sum_congr rfl fun k _ => ?_
  show max (FloatOps.matmul dot_S256x2048_S128x2048_S256x128_1_1_0_0_n_n none (truncf .bf16 xa bitsLt_bf16_f32)
      (truncf .bf16 xf bitsLt_bf16_f32) (constant S256x128 .f32 0x00000000#32) (ix2 p k)) (Ideal.ofBits .f32 0x00000000#32)
      * (s (ix2 q k) : EReal) = _
  rw [matmul_rows_apply _ dims_scores_a, Ideal.ofBits_zero_f32]
  rfl

end Cert.KernelIdeal.Body

end
-- ==== Proof.Result.lean ====
/-
  The kernel's result array is the specified function of its arguments.

  THE GRID. Four points `t = 0, 1, 2, 3`; point `t` reads block `t` of `a` (rows `256·t … 256·t + 255`), the whole of `b` and of
  `feats`, and writes block `t` of the result (the same rows, all 1024 columns). Points 0 and 2 fill the scratch; points 1 and 3 reuse
  what the point before left in it.

  THE SCRATCH. A filling point stores into the scratch the clipped scores of `b` — a function of `b` and `feats` alone, the same at
  every filling point — and a reusing point leaves the scratch as it found it. Point 0 fills. So by induction on the point the
  scratch holds the clipped scores of `b` after EVERY point, and the scratch a point's output value is computed over — just filled, or
  left by the point before — is always the clipped scores of `b`.

  THE OUTPUT. Hence at every point the output block's entry `(p, q)` is `∑ k, score(a-block, p, k) · score(b, q, k)`; row `p` of block
  `t` of `a` is row `256·t + p` of `a`, so this is the specification's entry `(256·t + p, q)`: what point `t` writes back is block `t` of
  the specified array. The four blocks cover the 1024 rows (row `r` lies in block `r / 256`), so the array ends holding the
  specified function everywhere.
-/
import proofs.«127049_j89567247991565_2_alg».proof.Proof.Gen.KernelIdeal.Value
import proofs.«127049_j89567247991565_2_alg».proof.Proof.Pieces
import proofs.«127049_j89567247991565_2_alg».proof.Proof.Body
import proofs.«127049_j89567247991565_2_alg».proof.Proof.Spec

noncomputable section

open scoped BigOperators

namespace Cert.KernelIdeal.Result

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The blocks each point reads -/

/-- The windows' block indices at point `t`, decided over the four points: the `a` window and the result window are at block row `t`,
    the `b` and `feats` windows never move. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of block `t` is row `256·t + p` of the array. -/
def row (t : Fin cfg0.N) (p : Fin 256) : Fin 1024 :=
  ⟨256 * t.val + p.val, by have h : t.val < 4 := lt_of_lt_of_eq t.isLt N_0; have := p.isLt; omega⟩

/-- The `a` block at point `t` holds rows `256·t …` of `a`. -/
theorem a_block (c : Dev nD) (t : Fin cfg0.N) (p : Fin 256) (d : Fin 2048) :
    (iblk m c 0 t : Vec Ideal S256x2048 .f32) (ix2 p d) = V m c main_arg0 (ix2 (row t p) d) := by
  obtain ⟨e0, e1, -⟩ := index_facts t
  unfold iblk
  rw [View.read_apply]
  show V m c main_arg0 _ = V m c main_arg0 _
  congr 1
  funext a
  apply Fin.ext
  match a with
  | ⟨0, _⟩ => show win0_0.index t (0 : Fin 2) * 256 + 1 * p.val = 256 * t.val + p.val; rw [e0]; omega
  | ⟨1, _⟩ => show win0_0.index t (1 : Fin 2) * 2048 + 1 * d.val = d.val; rw [e1]; omega

/-- The `b` block at every point is the whole of `b`. -/
theorem b_block (c : Dev nD) (t : Fin cfg0.N) (q : Fin 1024) (d : Fin 2048) :
    (iblk m c 1 t : Vec Ideal S1024x2048 .f32) (ix2 q d) = V m c main_arg1 (ix2 q d) := by
  obtain ⟨-, -, e0, e1, -⟩ := index_facts t
  unfold iblk
  rw [View.read_apply]
  show V m c main_arg1 _ = V m c main_arg1 _
  congr 1
  funext a
  apply Fin.ext
  match a with
  | ⟨0, _⟩ => show win0_1.index t (0 : Fin 2) * 1024 + 1 * q.val = q.val; rw [e0]; omega
  | ⟨1, _⟩ => show win0_1.index t (1 : Fin 2) * 2048 + 1 * d.val = d.val; rw [e1]; omega

/-- The `feats` block at every point is the whole of `feats`. -/
theorem f_block (c : Dev nD) (t : Fin cfg0.N) (k : Fin 128) (d : Fin 2048) :
    (iblk m c 2 t : Vec Ideal S128x2048 .f32) (ix2 k d) = V m c main_arg2 (ix2 k d) := by
  obtain ⟨-, -, -, -, e0, e1, -⟩ := index_facts t
  unfold iblk
  rw [View.read_apply]
  show V m c main_arg2 _ = V m c main_arg2 _
  congr 1
  funext a
  apply Fin.ext
  match a with
  | ⟨0, _⟩ => show win0_2.index t (0 : Fin 2) * 128 + 1 * k.val = k.val; rw [e0]; omega
  | ⟨1, _⟩ => show win0_2.index t (1 : Fin 2) * 2048 + 1 * d.val = d.val; rw [e1]; omega

/-- So a clipped score over the `a` block is the clipped score of the corresponding row of `a`. -/
theorem a_score (c : Dev nD) (t : Fin cfg0.N) (p : Fin 256) (k : Fin 128) :
    Spec.score (rows := 256) (iblk m c 0 t) (iblk m c 2 t) p k
      = Spec.score (rows := 1024) (V m c main_arg0) (V m c main_arg2) (row t p) k := by
  unfold Spec.score
  refine congrArg (max · 0) (Finset.sum_congr rfl fun d _ => ?_)
  rw [a_block m c t p d, f_block m c t k d]

/-! ## The scratch after every point -/

/-- The clipped scores of `b` against every feature, laid out as the scratch holds them. -/
def bScores (c : Dev nD) : Vec Ideal S1024x128 .bf16 :=
  fun j => Spec.score (rows := 1024) (V m c main_arg1) (V m c main_arg2) (j 0) (j 1)

/-- What a filling point stores into the scratch is the clipped scores of `b`, whichever point it is. -/
theorem filled (c : Dev nD) (t : Fin cfg0.N) : k0_pay1 (F := Ideal) (iblk m c 1 t) (iblk m c 2 t) = bScores m c := by
  funext j
  obtain ⟨q, k, rfl⟩ : ∃ (q : Fin 1024) (k : Fin 128), j = ix2 q k := ⟨j 0, j 1, eq_ix2 j⟩
  refine (Body.scratch_apply (iblk m c 1 t) (iblk m c 2 t) q k).trans ?_
  show Spec.score (rows := 1024) (iblk m c 1 t) (iblk m c 2 t) q k
    = Spec.score (rows := 1024) (V m c main_arg1) (V m c main_arg2) q k
  unfold Spec.score
  refine congrArg (max · 0) (Finset.sum_congr rfl fun d _ => ?_)
  rw [b_block m c t q d, f_block m c t k d]

/-- THE INVARIANT: after every point the scratch holds the clipped scores of `b` — a filling point stores them, a reusing point
    keeps what the point before left, and point 0 fills. -/
theorem scratch_after (c : Dev nD) : ∀ (n : ℕ) (h : n < cfg0.N), (outsAt0 m c n h).2 = bScores m c := by
  intro n
  induction n with
  | zero =>
    intro h
    rw [outsAt0_A m c ⟨0, h⟩ rfl]
    dsimp only
    exact (Pieces.scratch_filling (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr rfl) (iblk m c 0 ⟨0, h⟩) (iblk m c 1 ⟨0, h⟩) (iblk m c 2 ⟨0, h⟩)).trans (filled m c ⟨0, h⟩)
  | succ n ih =>
    intro h
    by_cases h0 : (n + 1) % 2 = 0
    · rw [outsAt0_A m c ⟨n + 1, h⟩ h0]
      dsimp only
      exact (Pieces.scratch_filling (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) ((hcond0_0 ⟨n + 1, h⟩).mpr h0) (iblk m c 0 ⟨n + 1, h⟩) (iblk m c 1 ⟨n + 1, h⟩) (iblk m c 2 ⟨n + 1, h⟩)).trans (filled m c ⟨n + 1, h⟩)
    · rw [outsAt0_B m c ⟨n + 1, h⟩ h0]
      dsimp only
      unfold sout0_B_0
      exact ih _

/-- So whichever case runs at point `t`, its output buffer ends holding the body's output value of the `a` block, `feats` and the clipped
    scores of `b`: a filling point computes it over what it has just stored, a reusing point over what the point before left. -/
theorem out_after (c : Dev nD) (t : Fin cfg0.N) :
    (outsAt0 m c t.val t.isLt).1 = k0_pay2 (F := Ideal) (iblk m c 0 t) (iblk m c 2 t) (bScores m c) := by
  by_cases h0 : t.val % 2 = 0
  · rw [outsAt0_A m c t h0]
    dsimp only
    exact (Pieces.out_filling (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans
      (congrArg (k0_pay2 (F := Ideal) (iblk m c 0 t) (iblk m c 2 t)) (filled m c t))
  · rw [outsAt0_B m c t h0]
    dsimp only
    exact (Pieces.out_reusing (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
        (outsAt0 m c (t.val - 1) (Nat.lt_of_le_of_lt (Nat.sub_le _ _) t.isLt)).2).trans
      (congrArg (k0_pay2 (F := Ideal) (iblk m c 0 t) (iblk m c 2 t)) (scratch_after m c _ _))

/-! ## What each point writes back, and the array after the run -/

/-- The specified result over the argument arrays as the region finds them. -/
abbrev spec (c : Dev nD) : S1024x1024.Idx → EReal :=
  Spec.result (V m c main_arg0) (V m c main_arg1) (V m c main_arg2)

/-- WHAT POINT `t` WRITES BACK is block `t` of the specified array. -/
theorem flushed_eq (c : Dev nD) (t : Fin cfg0.N) :
    (dats m 0 c).flushed 3 t = ((cfg0.win 3).blk t).view.read (Elt Ideal) (spec m c) := by
  rw [Value.flushed3, out_after]
  obtain ⟨-, -, -, -, -, -, e0, e1⟩ := index_facts t
  funext j
  obtain ⟨p, q, rfl⟩ : ∃ (p : Fin 256) (q : Fin 1024), j = ix2 p q := ⟨j 0, j 1, eq_ix2 j⟩
  show k0_pay2 (F := Ideal) (iblk m c 0 t) (iblk m c 2 t) (bScores m c) (ix2 p q)
    = spec m c (((cfg0.win 3).blk t).view.emb (ix2 p q))
  have hemb : ((cfg0.win 3).blk t).view.emb (ix2 p q) = ix2 (row t p) q := by
    funext a
    apply Fin.ext
    match a with
    | ⟨0, _⟩ => show win0_3.index t (0 : Fin 2) * 256 + 1 * p.val = 256 * t.val + p.val; rw [e0]; omega
    | ⟨1, _⟩ => show win0_3.index t (1 : Fin 2) * 1024 + 1 * q.val = q.val; rw [e1]; omega
  rw [hemb]
  refine (Body.out_apply (iblk m c 0 t) (iblk m c 2 t) (bScores m c) p q).trans ?_
  show _ = Spec.entry (V m c main_arg0) (V m c main_arg1) (V m c main_arg2) (row t p) q
  unfold Spec.entry
  refine Finset.sum_congr rfl fun k _ => ?_
  rw [a_score m c t p k]
  rfl

/-- An index of the array is in point `t`'s block iff each coordinate is in the block's range on its axis. -/
theorem mem_block (t : Fin cfg0.N) (i : S1024x1024.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v0).slice (win0_3.rect t)).set ↔ _
  rw [View.set_slice_whole, Rect.mem_set_unit]
  exact Iff.rfl

/-- THE COVER: row `r` of the array lies in the block of point `r / 256`, and every point writes its block back. -/
theorem covered (i : S1024x1024.Idx) :
    ∃ t : Fin cfg0.N, (cfg0.win 3).flush t = true ∧ i ∈ ((cfg0.win 3).blk t).view.set := by
  have hi0 : (i 0).val < 1024 := (i 0).isLt
  have hi1 : (i 1).val < 1024 := (i 1).isLt
  obtain ⟨t, ht⟩ : ∃ t : Fin cfg0.N, t.val = (i 0).val / 256 :=
    ⟨⟨(i 0).val / 256, by rw [show cfg0.N = 4 from N_0]; omega⟩, rfl⟩
  obtain ⟨-, -, -, -, -, -, e0, e1⟩ := index_facts t
  refine ⟨t, flush0_3 t, ?_⟩
  rw [mem_block]
  intro a
  match a with
  | ⟨0, _⟩ =>
    show win0_3.index t (0 : Fin 2) * 256 ≤ (i 0).val ∧ (i 0).val < win0_3.index t (0 : Fin 2) * 256 + 256
    rw [e0]; omega
  | ⟨1, _⟩ =>
    show win0_3.index t (1 : Fin 2) * 1024 ≤ (i 1).val ∧ (i 1).val < win0_3.index t (1 : Fin 2) * 1024 + 1024
    rw [e1]; omega

/-- THE ARRAY AFTER THE RUN is the specified function of the argument arrays. -/
theorem array_eq (c : Dev nD) : (dats m 0 c).arrAt 3 cfg0.N = spec m c :=
  (dats m 0 c).arrAt_eq_of_cover 3 (spec m c) (fun t _ => flushed_eq m c t) covered

/-- THE RUN, READ: every weakly fair execution of the kernel terminates with the result array at the specified function of the
    argument arrays as launched, and the arguments unchanged. -/
theorem run : θ_run defs (onTc (τ := τ) (main (F := Ideal))) ⟨m, fun _ => 0, ρ⟩ fun r => ∀ c : Dev nD,
      r.2.mem ((c : Thread nD τ).loc main_v0) = Spec.result (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (array_eq m c), (h c).2⟩) (Value.run_blocks m ρ)

end Cert.KernelIdeal.Result

end
-- ==== Proof.RefResult.lean ====
/-
  The reference's result is the specified function of its arguments.

  The reference transposes `feats`, multiplies `a` and `b` by the transpose (contracting their columns with the transpose's rows),
  clips both products below at zero, and multiplies the first clipped product by the second contracting the features. Read at an
  index, the transpose swaps the two coordinates, so each first-stage product at `(r, k)` is `∑ d, x[r, d] · feats[k, d]`, the
  clipped product is the clipped score of row `r` against feature `k`, and the last product at `(i, j)` is the inner product over the
  features of the clipped scores of row `i` of `a` and row `j` of `b` — the specification's entry, term for term.
-/
import proofs.«127049_j89567247991565_2_alg».proof.Proof.Gen.ReferenceIdeal.Read
import proofs.«127049_j89567247991565_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's clipped scores of `a`'s rows: its fifth stage at `(r, k)` is the clipped score of row `r` against feature `k`. -/
theorem scores_a_apply (xa : (⟨S1024x2048, .f32⟩ : BufTy).Contents (Elt Ideal)) (xf : (⟨S128x2048, .f32⟩ : BufTy).Contents (Elt Ideal))
    (r : Fin 1024) (k : Fin 128) :
    val_main_v4 (F := Ideal) xa xf (ix2 r k) = Spec.score (rows := 1024) xa xf r k := by
  rw [val_main_v4_apply, val_main_v1_apply, val_main_call0_v0_apply, val_main_call0_cst_apply]
  show max (∑ d : Fin 2048, xa (lidx_main_v1 (ix2 r k) d) * val_main_v0 (F := Ideal) xf (ridx_main_v1 (ix2 r k) d))
      (Ideal.ofBits .f32 0x00000000#32) = _
  rw [Ideal.ofBits_zero_f32]
  unfold Spec.score
  refine congrArg (max · 0) (Finset.sum_congr rfl fun d _ => ?_)
  rw [val_main_v0_apply]
  have e1 : lidx_main_v1 (ix2 r k) d = ix2 r d := funext fun x => match x with | ⟨0, _⟩ => rfl | ⟨1, _⟩ => rfl
  have e2 : idx_main_v0 (ridx_main_v1 (ix2 r k) d) = ix2 k d := funext fun x => match x with | ⟨0, _⟩ => rfl | ⟨1, _⟩ => rfl
  rw [e1, e2]

/-- The reference's clipped scores of `b`'s rows, likewise. -/
theorem scores_b_apply (xb : (⟨S1024x2048, .f32⟩ : BufTy).Contents (Elt Ideal)) (xf : (⟨S128x2048, .f32⟩ : BufTy).Contents (Elt Ideal))
    (r : Fin 1024) (k : Fin 128) :
    val_main_v5 (F := Ideal) xb xf (ix2 r k) = Spec.score (rows := 1024) xb xf r k := by
  rw [val_main_v5_apply, val_main_v3_apply, val_main_call1_v0_apply, val_main_call1_cst_apply]
  show max (∑ d : Fin 2048, xb (lidx_main_v3 (ix2 r k) d) * val_main_v2 (F := Ideal) xf (ridx_main_v3 (ix2 r k) d))
      (Ideal.ofBits .f32 0x00000000#32) = _
  rw [Ideal.ofBits_zero_f32]
  unfold Spec.score
  refine congrArg (max · 0) (Finset.sum_congr rfl fun d _ => ?_)
  rw [val_main_v2_apply]
  have e1 : lidx_main_v3 (ix2 r k) d = ix2 r d := funext fun x => match x with | ⟨0, _⟩ => rfl | ⟨1, _⟩ => rfl
  have e2 : idx_main_v2 (ridx_main_v3 (ix2 r k) d) = ix2 k d := funext fun x => match x with | ⟨0, _⟩ => rfl | ⟨1, _⟩ => rfl
  rw [e1, e2]

/-- THE REFERENCE IS THE SPECIFICATION: its last stage, as a function of the three arguments, is `Spec.result`. -/
theorem result_eq (xa xb : (⟨S1024x2048, .f32⟩ : BufTy).Contents (Elt Ideal)) (xf : (⟨S128x2048, .f32⟩ : BufTy).Contents (Elt Ideal)) :
    val_main_v6 (F := Ideal) xa xb xf = Spec.result xa xb xf := by
  funext i
  obtain ⟨p, q, rfl⟩ : ∃ (p q : Fin 1024), i = ix2 p q := ⟨i 0, i 1, eq_ix2 i⟩
  rw [val_main_v6_apply, Spec.result_ix2]
  unfold Spec.entry
  refine Finset.sum_congr rfl fun k _ => ?_
  have e1 : lidx_main_v6 (ix2 p q) k = ix2 p k := funext fun x => match x with | ⟨0, _⟩ => rfl | ⟨1, _⟩ => rfl
  have e2 : ridx_main_v6 (ix2 p q) k = ix2 q k := funext fun x => match x with | ⟨0, _⟩ => rfl | ⟨1, _⟩ => rfl
  rw [e1, e2, scores_a_apply, scores_b_apply]

end Cert.ReferenceIdeal.RefValue

end
-- ==== Proof.lean ====
/-
  The kernel computes, for `a, b : 1024 × 2048` and `feats : 128 × 2048`,

      out[i, j] = ∑ k, max (∑ d, a[i, d] · feats[k, d]) 0 · max (∑ d, b[j, d] · feats[k, d]) 0        (1024 × 1024),

  the inner product over 128 features of the clipped scores of row `i` of `a` and row `j` of `b`; the reference computes the same
  array by two products with the transpose of `feats`, two clippings and one product contracting the features.

  The kernel walks four blocks of 256 rows of `a`. The clipped scores of `b` do not depend on the block, so the body computes them
  only at every other point, into a scratch buffer, and at the points between reuses what is there. Over the extended reals the
  narrowing float conversions are the identity and every product is an exact sum, so:
    * the scratch holds the clipped scores of `b` after every point, by induction along the grid (Proof/Result.lean);
    * each point therefore writes back its block of the array above, and the four blocks cover it (Proof/Result.lean, over the
      body's two stored values read entry by entry in Proof/Body.lean and the two control cases' contents in Proof/Pieces.lean);
    * the reference's last stage, read entry by entry, is the same array (Proof/RefResult.lean).
  Both sides nest the same sums with the factors in the same order; no law of arithmetic that could fail at an infinity is used, and
  the finiteness of the inputs is never opened. The array itself is stated once, in Proof/Spec.lean; a matrix product contracting the
  last axis of both operands is read at an entry in Proof/LibDotRows.lean.

  The three frame claims are the generated frame runs (for the reference, its generated run with the result dropped); the kernel's
  idealization rewrote no operation, so that claim is `True`.
-/
import proofs.«127049_j89567247991565_2_alg».proof.Defs
import proofs.«127049_j89567247991565_2_alg».proof.Proof.Gen.Kernel
import proofs.«127049_j89567247991565_2_alg».proof.Proof.Gen.Kernel.Skeleton
import proofs.«127049_j89567247991565_2_alg».proof.Proof.Gen.Kernel.Launch
import proofs.«127049_j89567247991565_2_alg».proof.Proof.Gen.Kernel.Points
import proofs.«127049_j89567247991565_2_alg».proof.Proof.Gen.Kernel.Frame
import proofs.«127049_j89567247991565_2_alg».proof.Proof.Gen.KernelIdeal
import proofs.«127049_j89567247991565_2_alg».proof.Proof.Gen.KernelIdeal.Skeleton
import proofs.«127049_j89567247991565_2_alg».proof.Proof.Gen.KernelIdeal.Launch
import proofs.«127049_j89567247991565_2_alg».proof.Proof.Gen.KernelIdeal.Points
import proofs.«127049_j89567247991565_2_alg».proof.Proof.Gen.KernelIdeal.Frame
import proofs.«127049_j89567247991565_2_alg».proof.Proof.Gen.ReferenceIdeal
import proofs.«127049_j89567247991565_2_alg».proof.Proof.Gen.Pre_finite_inputs
import proofs.«127049_j89567247991565_2_alg».proof.Proof.Gen.KernelIdeal.Value
import proofs.«127049_j89567247991565_2_alg».proof.Proof.Gen.ReferenceIdeal.Run
import proofs.«127049_j89567247991565_2_alg».proof.Proof.Gen.ReferenceIdeal.Read
import proofs.«127049_j89567247991565_2_alg».proof.Proof.Result
import proofs.«127049_j89567247991565_2_alg».proof.Proof.RefResult
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations: nothing to preserve. -/
theorem preserves : Cert.preserves_Kernel_KernelIdeal := trivial

/-- Over the extended reals, from memories that agree on the three arguments, the kernel's result array ends at the specified
    function of its arguments and the reference's at its last stage of its own — which is the specified function too, of arguments
    that are the same arrays. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
